-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S1x4096x1x1 : Shape := ⟨4, ![1, 4096, 1, 1]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S1x4096x1x1 : S_.BroadcastsInDim S1x4096x1x1 (![] : Fin 0 → Fin S1x4096x1x1.rank)
  reducesTo_S1x4096x1x1_S_d0_1_2_3 : S1x4096x1x1.ReducesTo [0, 1, 2, 3] S_

variable [Facts]

def fn_part1 {F : FTy → Type} [FloatOps F] (main_arg4 : FVec F S4096 .f32) (main_arg5 : FVec F S1x4096x1x1 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1x4096x1x1 .f32 := Host.absf main_arg5
  let main_cst_8 : FVec F S_ .f32 := constant S_ .f32 0x7F800000#32
  let main_v25 : FVec F S1x4096x1x1 .f32 := broadcastInDim S1x4096x1x1 ![] bcast_S_S1x4096x1x1 main_cst_8
  let main_v26 : IVec S1x4096x1x1 1 := cmpf .olt main_v24 main_v25
  let main_c_9 : IVec S_ 1 := constantI S_ 1 1#1
  let main_v27 : IVec S_ 1 := (fun x v => Host.reduce IntOp.andi x v reducesTo_S1x4096x1x1_S_d0_1_2_3 h_S_) main_v26 main_c_9
  let main_v28 : IVec S_ 1 := andi main_v23 main_v27
  main_v28

def fn {F : FTy → Type} [FloatOps F] (main_arg0 : FVec F S8192x2048 .f32) (main_arg1 : FVec F S4096x2048 .f32) (main_arg2 : FVec F S4096 .f32) (main_arg3 : FVec F S4096 .f32) (main_arg4 : FVec F S4096 .f32) (main_arg5 : FVec F S1x4096x1x1 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x2048 : Shape := ⟨2, ![8192, 2048]⟩
abbrev S4096x2048 : Shape := ⟨2, ![4096, 2048]⟩
abbrev S4096 : Shape := ⟨1, ![4096]⟩
abbrev S1x4096x1x1 : Shape := ⟨4, ![1, 4096, 1, 1]⟩
abbrev S2048x4096 : Shape := ⟨2, ![2048, 4096]⟩
abbrev S1x4096 : Shape := ⟨2, ![1, 4096]⟩
abbrev S8192x4096 : Shape := ⟨2, ![8192, 4096]⟩
abbrev S128x2048 : Shape := ⟨2, ![128, 2048]⟩
abbrev S128x4096 : Shape := ⟨2, ![128, 4096]⟩
abbrev S128x32x128 : Shape := ⟨3, ![128, 32, 128]⟩
abbrev S128x32 : Shape := ⟨2, ![128, 32]⟩
abbrev S128x32x1 : Shape := ⟨3, ![128, 32, 1]⟩
abbrev S128 : Shape := ⟨1, ![128]⟩
abbrev S128x1 : Shape := ⟨2, ![128, 1]⟩

abbrev nBuf : Space → Nat
  | .hbm => 13
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096x1x1, .f32⟩
  | .hbm, ⟨6, _⟩ => ⟨S2048x4096, .f32⟩
  | .hbm, ⟨7, _⟩ => ⟨S2048x4096, .bf16⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S8192x4096, .f32⟩
  | .local _ .vmem, ⟨0, _⟩ => ⟨S128x2048, .f32⟩
  | .local _ .vmem, ⟨1, _⟩ => ⟨S128x2048, .f32⟩
  | .local _ .vmem, ⟨2, _⟩ => ⟨S2048x4096, .bf16⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S4096x2048_S2048x4096_1_0 : S4096x2048.Transposes [1, 0] S2048x4096
  bitsLt_bf16_f32 : FTy.bits .bf16 < FTy.bits .f32
  shapeCasts_S4096_S1x4096 : S4096.ShapeCasts S1x4096
  shapeCasts_S1x4096x1x1_S1x4096 : S1x4096x1x1.ShapeCasts S1x4096
  inb_S128x2048_S128x2048_0_0 : ∀ a, (![0, 0] : Fin 2 → Nat) a + S128x2048.size a ≤ S128x2048.size a
  h_S128x2048 : 0 < S128x2048.numel
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  shapeCasts_S128x4096_S128x32x128 : S128x4096.ShapeCasts S128x32x128
  reduces_S128x32x128_S128x32 : S128x32x128.Reduces [2] S128x32
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  reduces_S128x4096_S128 : S128x4096.Reduces [1] S128
  shapeCasts_S128_S128x1 : S128.ShapeCasts S128x1
  broadcasts_S128x1_S128x4096 : S128x1.Broadcasts S128x4096
  inb_S128x4096_S128x4096_0_0 : ∀ a, (![0, 0] : Fin 2 → Nat) a + S128x4096.size a ≤ S128x4096.size a
  h_S128x4096 : 0 < S128x4096.numel
  dot_S128x2048_S2048x4096_S128x4096_1_0_0_1_n_n_wf : DotDims.WF S128x2048 S2048x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S8192x4096.size a
  hwx0_6 : ∀ i : grid0.Coords, EltTy.bits .f32 = 32 ∨ (Rect.block (s := S8192x4096) S128x4096.size (cc0_transform_6 i) (hinb0_6 i)).WholeWords (EltTy.packing .f32)

variable [Facts₀]

def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S1x4096x1x1 : Shape := ⟨4, ![1, 4096, 1, 1]⟩
abbrev S8192x4096 : Shape := ⟨2, ![8192, 4096]⟩
abbrev S1x4096 : Shape := ⟨2, ![1, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S8192 : Shape := ⟨1, ![8192]⟩
abbrev S8192x1 : Shape := ⟨2, ![8192, 1]⟩
abbrev S8192x1x1x1 : Shape := ⟨4, ![8192, 1, 1, 1]⟩
abbrev S8192x4096x1x1 : Shape := ⟨4, ![8192, 4096, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096x1x1, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S8192x32x128, .f32⟩
  | .hbm, ⟨11, _⟩ => ⟨S_, .f32⟩
  | .hbm, ⟨12, _⟩ => ⟨S8192x32, .f32⟩
  | .hbm, ⟨13, _⟩ => ⟨S8192x32x1, .f32⟩
  | .hbm, ⟨14, _⟩ => ⟨S_, .f32⟩
  | .hbm, ⟨15, _⟩ => ⟨S8192x32x1, .f32⟩
  | .hbm, ⟨16, _⟩ => ⟨S8192x32x1, .f32⟩
  | .hbm, ⟨17, _⟩ => ⟨S8192x32x128, .f32⟩
  | .hbm, ⟨18, _⟩ => ⟨S8192x32x128, .f32⟩
  | .hbm, ⟨19, _⟩ => ⟨S8192x32x128, .f32⟩
  | .hbm, ⟨20, _⟩ => ⟨S_, .f32⟩
  | .hbm, ⟨21, _⟩ => ⟨S8192x32, .f32⟩
  | .hbm, ⟨22, _⟩ => ⟨S8192x32x1, .f32⟩
  | .hbm, ⟨23, _⟩ => ⟨S_, .f32⟩
  | .hbm, ⟨24, _⟩ => ⟨S8192x32x1, .f32⟩
  | .hbm, ⟨25, _⟩ => ⟨S8192x32x1, .f32⟩
  | .hbm, ⟨26, _⟩ => ⟨S8192x32x128, .f32⟩
  | .hbm, ⟨27, _⟩ => ⟨S8192x32x128, .f32⟩
  | .hbm, ⟨28, _⟩ => ⟨S_, .f32⟩
  | .hbm, ⟨29, _⟩ => ⟨S8192x32x1, .f32⟩
  | .hbm, ⟨30, _⟩ => ⟨S8192x32x1, .f32⟩
  | .hbm, ⟨31, _⟩ => ⟨S8192x32x1, .f32⟩
  | .hbm, ⟨32, _⟩ => ⟨S8192x32x128, .f32⟩
  | .hbm, ⟨33, _⟩ => ⟨S8192x32x128, .f32⟩
  | .hbm, ⟨34, _⟩ => ⟨S8192x4096, .f32⟩
  | .hbm, ⟨35, _⟩ => ⟨S1x4096, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1x1x1, .f32⟩
  | .hbm, ⟨45, _⟩ => ⟨S8192x4096x1x1, .f32⟩
  | .hbm, ⟨46, _⟩ => ⟨S8192x4096x1x1, .f32⟩
  | .hbm, ⟨47, _⟩ => ⟨S8192x4096x1x1, .f32⟩
  | .hbm, ⟨48, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  shapeCasts_S8192x32x128_S8192x4096 : S8192x32x128.ShapeCasts S8192x4096
  reducesTo_S8192x4096_S8192_d1 : S8192x4096.ReducesTo [1] S8192
  bcast_S8192_S8192x1_0 : S8192.BroadcastsInDim S8192x1 (![0] : Fin 1 → Fin S8192x1.rank)
  bcast_S8192x1_S8192x1x1x1_0_1 : S8192x1.BroadcastsInDim S8192x1x1x1 (![0, 1] : Fin 2 → Fin S8192x1x1x1.rank)
  bcast_S8192x1x1x1_S8192x4096x1x1_0_1_2_3 : S8192x1x1x1.BroadcastsInDim S8192x4096x1x1 (![0, 1, 2, 3] : Fin 4 → Fin S8192x4096x1x1.rank)
  bcast_S1x4096x1x1_S8192x4096x1x1_0_1_2_3 : S1x4096x1x1.BroadcastsInDim S8192x4096x1x1 (![0, 1, 2, 3] : Fin 4 → Fin S8192x4096x1x1.rank)
  shapeCasts_S8192x4096x1x1_S8192x4096 : S8192x4096x1x1.ShapeCasts S8192x4096
  dot_S8192x2048_S4096x2048_S8192x4096_1_1_0_0_n_n_wf : DotDims.WF S8192x2048 S4096x2048 S8192x4096 [1] [1] [0] [0] [] []

variable [Facts₀]

def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf

class Facts : Prop extends Facts₀ where

variable [Facts]
-- ==== Proof.GroupNormRow.lean ====
/-
  One row of the computation, over the extended reals, as plain functions of finite indices.

  A row of 2048 inputs is sent through a linear map to 4096 columns (a weight per column and input, plus a column
  bias); the 4096 columns fall into 32 consecutive groups of 128 lanes, and each group is normalized by its own mean
  and its own mean squared deviation (the sums divided by 128, the reciprocal square root taken of the variance plus a
  small constant); each column is then scaled and shifted by its own two constants; the row's result is the minimum of
  the 4096 values, and the output at column `c` is that minimum plus a last per-column constant.
  Both programs compute exactly this, operation for operation, so nothing here needs an input to be finite.
-/
import Idealize.ShloMosaic.PureOps.Ideal

noncomputable section

namespace Cert.GroupNormRow

open Idealize.ShloMosaic

/-- Column `128·g + l`: lane `l` of group `g`. -/
def col (g : Fin 32) (l : Fin 128) : Fin 4096 :=
  ⟨g.val * 128 + l.val, by have := g.isLt; have := l.isLt; omega⟩

/-- The group of a column. -/
def grp (c : Fin 4096) : Fin 32 := ⟨c.val / 128, by have := c.isLt; omega⟩

/-- The lane of a column inside its group. -/
def lane (c : Fin 4096) : Fin 128 := ⟨c.val % 128, Nat.mod_lt _ (by norm_num)⟩

theorem col_val (g : Fin 32) (l : Fin 128) : (col g l).val = g.val * 128 + l.val := rfl
theorem grp_val (c : Fin 4096) : (grp c).val = c.val / 128 := rfl
theorem lane_val (c : Fin 4096) : (lane c).val = c.val % 128 := rfl

/-- The group size 128 and the variance offset, as the f32 patterns both programs carry. -/
abbrev c128 : EReal := Ideal.ofBits .f32 0x43000000#32
abbrev ceps : EReal := Ideal.ofBits .f32 0x3727C5AC#32

/-- The linear map at column `c`: the row against column `c`'s weights, plus the column's bias. -/
def lin (xr : Fin 2048 → EReal) (w : Fin 4096 → Fin 2048 → EReal) (b : Fin 4096 → EReal) (c : Fin 4096) : EReal :=
  (∑ k : Fin 2048, xr k * w c k) + b c

/-- A group's sum over its 128 lanes, divided by 128. -/
def gmean (y : Fin 32 → Fin 128 → EReal) (g : Fin 32) : EReal := Ideal.div (∑ l : Fin 128, y g l) c128

/-- The deviation of a lane from its group's mean. -/
def dev (y : Fin 32 → Fin 128 → EReal) (g : Fin 32) (l : Fin 128) : EReal := y g l - gmean y g

/-- A group's mean squared deviation. -/
def gvar (y : Fin 32 → Fin 128 → EReal) (g : Fin 32) : EReal := gmean (fun g l => dev y g l * dev y g l) g

/-- The normalized lane: its deviation times the reciprocal square root of the group's variance plus the offset. -/
def nrm (y : Fin 32 → Fin 128 → EReal) (g : Fin 32) (l : Fin 128) : EReal :=
  dev y g l * Ideal.rsqrt (gvar y g + ceps)

/-- Column `c` normalized within its group, then scaled and shifted by the column's constants. -/
def aff (y gam bet : Fin 4096 → EReal) (c : Fin 4096) : EReal :=
  nrm (fun g l => y (col g l)) (grp c) (lane c) * gam c + bet c

/-- The row's minimum over its 4096 columns (an infimum, so +infinity were there no columns). -/
def rowmin (z : Fin 4096 → EReal) : EReal := (Finset.univ : Finset (Fin 4096)).inf z

/-- The row's output at column `c`. -/
def out (xr : Fin 2048 → EReal) (w : Fin 4096 → Fin 2048 → EReal) (b gam bet bias : Fin 4096 → EReal) (c : Fin 4096) : EReal :=
  rowmin (aff (lin xr w b) gam bet) + bias c

end Cert.GroupNormRow

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibRowMin.lean ====
/-
  Minima over the extended reals, for reductions that start from +infinity.

  A fold of `min` from the top element over a finite set is the set's infimum; the f32 pattern of +infinity denotes
  the top element; so a row minimum of an [a, b] vector started from +infinity is, at row n, the infimum of that
  row's entries. And a real constant moves through a finite infimum: (inf f) + c = inf (f + c), the empty infimum
  included, because adding c is monotone and keeps the top element.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibRowMin

open Idealize.ShloMosaic Idealize.ShloMosaic.ValueIdx

/-- The f32 pattern of +infinity denotes the top element. -/
theorem ofBits_inf_f32 : Ideal.ofBits .f32 0x7F800000#32 = (⊤ : EReal) := by
  simp [Ideal.ofBits, Ideal.ieee]

/-- A fold of `min` from the top element is the infimum. -/
theorem fold_min_top {ι : Type*} (s : Finset ι) (f : ι → EReal) : s.fold min ⊤ f = s.inf f := by
  classical
  induction s using Finset.induction_on with
  | empty => simp
  | insert a s ha ih => rw [Finset.fold_insert ha, Finset.inf_insert, ih]

/-- Adding a real constant commutes with a finite infimum (the empty one included: top plus a real is top). -/
theorem inf_add_coe {ι : Type*} (s : Finset ι) (f : ι → EReal) (c : ℝ) :
    s.inf f + (c : EReal) = s.inf fun j => f j + (c : EReal) :=
  Finset.comp_inf_eq_inf_comp (fun a : EReal => a + (c : EReal))
    (fun a b => (Monotone.map_min (f := fun a : EReal => a + (c : EReal)) fun _ _ h => add_le_add h le_rfl))
    (EReal.top_add_coe c)

variable {a b : ℕ}

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

/-- A row minimum of an f32 [a, b] vector started from +infinity is, at row `n`, the infimum of that row's entries. -/
theorem rowmin_apply (src : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (n : Fin a) :
    multiReduction .minimumf [1] ⟨1, ![a]⟩ src 0x7F800000#32 h hφ hacc (ix1 n)
      = (Finset.univ : Finset (Fin b)).inf fun k => src (ix2 n k) := by
  refine (multiReduction_minimumf_eq_fold src _ h hφ hacc (ix1 n)).trans ?_
  refine (h.fold_filter_drop_single _ _ src (ix1 n)).trans ?_
  have e : (src ∘ h.lift (ix1 n)) = fun k => src (ix2 n k) :=
    funext fun k => congrArg src (lift_row h n k)
  rw [e]
  show (Finset.univ : Finset (Fin b)).fold min (Ideal.ofBits .f32 0x7F800000#32) _ = _
  rw [ofBits_inf_f32]
  exact fold_min_top _ _

end Cert.LibRowMin

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibKeepdims3.lean ====
/-
  Rank-3 vectors [a, b, c] with a kept unit last axis, read at an index: the cast of an [a, b] vector to [a, b, 1], the
  broadcast of an [a, b, 1] vector along the last axis of [a, b, c], a length-c vector cast to [1, 1, c] and broadcast
  to [a, b, c], the sum over the last axis over the extended reals, and the reshapes between [a, b, c] and [a·b, c]
  that flatten and restore the two leading axes. Each says which operand entry (or entries) a result entry reads.
-/
import Idealize.ShloMosaic.Lib.Pipeline.Value
import Idealize.ShloMosaic.Lib.ValueIdx
import Idealize.ShloMosaic.PureOps.Ideal.Laws

noncomputable section

namespace Cert.LibKeepdims3

open Idealize.ShloMosaic Idealize.ShloMosaic.ValueIdx

variable {α : Type} {a b c : ℕ}

/-- Entry `(p, n, 0)` of the cast of an [a, b] vector to [a, b, 1] is the vector's entry `(p, n)`: the same row-major
    position. -/
theorem shapeCast_keep_apply (x : (⟨2, ![a, b]⟩ : Shape).Idx → α) (h : (⟨2, ![a, b]⟩ : Shape).ShapeCasts ⟨3, ![a, b, 1]⟩)
    (p : Fin a) (n : Fin b) : shapeCast ⟨3, ![a, b, 1]⟩ x h (ix3 p n (0 : Fin 1)) = x (ix2 p n) :=
  shapeCast_apply x h (ix3 p n (0 : Fin 1)) (ix2 p n) (by
    rw [Shape.rowMajor_val_two, Shape.rowMajor_val_three]
    show p.val * b + n.val = (p.val * b + n.val) * 1 + 0
    omega)

/-- Entry `(p, n, d)` of an [a, b, 1] vector broadcast along the last axis is its entry `(p, n, 0)`. -/
theorem broadcastTo_lane_apply (x : (⟨3, ![a, b, 1]⟩ : Shape).Idx → α) (h : (⟨3, ![a, b, 1]⟩ : Shape).Broadcasts ⟨3, ![a, b, c]⟩)
    (p : Fin a) (n : Fin b) (d : Fin c) : broadcastTo ⟨3, ![a, b, c]⟩ x h (ix3 p n d) = x (ix3 p n (0 : Fin 1)) :=
  broadcastTo_apply x h (ix3 p n d) (ix3 p n (0 : Fin 1)) (fun k => by
    match k with
    | ⟨0, _⟩ =>
      show p.val = if a = 1 then 0 else p.val
      have := p.isLt
      split <;> omega
    | ⟨1, _⟩ =>
      show n.val = if b = 1 then 0 else n.val
      have := n.isLt
      split <;> omega
    | ⟨2, _⟩ => rfl)

/-- Entry `(0, 0, d)` of the cast of a length-c vector to [1, 1, c] is the vector's entry `d`. -/
theorem shapeCast_feat_apply (x : (⟨1, ![c]⟩ : Shape).Idx → α) (h : (⟨1, ![c]⟩ : Shape).ShapeCasts ⟨3, ![1, 1, c]⟩) (d : Fin c) :
    shapeCast ⟨3, ![1, 1, c]⟩ x h (ix3 (0 : Fin 1) (0 : Fin 1) d) = x (ix1 d) :=
  shapeCast_apply x h (ix3 (0 : Fin 1) (0 : Fin 1) d) (ix1 d) (by
    rw [Shape.rowMajor_val_one, Shape.rowMajor_val_three]
    show d.val = (0 * 1 + 0) * c + d.val
    omega)

/-- Entry `(p, n, d)` of a [1, 1, c] vector broadcast to [a, b, c] is its entry `(0, 0, d)`. -/
theorem broadcastTo_feat_apply (x : (⟨3, ![1, 1, c]⟩ : Shape).Idx → α) (h : (⟨3, ![1, 1, c]⟩ : Shape).Broadcasts ⟨3, ![a, b, c]⟩)
    (p : Fin a) (n : Fin b) (d : Fin c) : broadcastTo ⟨3, ![a, b, c]⟩ x h (ix3 p n d) = x (ix3 (0 : Fin 1) (0 : Fin 1) d) :=
  broadcastTo_apply x h (ix3 p n d) (ix3 (0 : Fin 1) (0 : Fin 1) d) (fun k => by
    match k with
    | ⟨0, _⟩ => rfl
    | ⟨1, _⟩ => rfl
    | ⟨2, _⟩ =>
      show d.val = if c = 1 then 0 else d.val
      have := d.isLt
      split <;> omega)

/-- The reduced index `(p, n)` of a reduction over the last axis with the coordinate `k` put back is `(p, n, k)`. -/
theorem lift_lane (h : (⟨3, ![a, b, c]⟩ : Shape).Reduces [2] ⟨2, ![a, b]⟩) (p : Fin a) (n : Fin b) (k : Fin c) :
    h.lift (ix2 p n) k = ix3 p n k := by
  funext e; apply Fin.ext
  fin_cases e <;> rfl

variable {φ : FTy}

/-- A sum over the last axis at `(p, n)` is the sum of the entries `(p, n, k)`. -/
theorem lanesum_apply (src : FVec Ideal ⟨3, ![a, b, c]⟩ φ) (acc : BitVec φ.bits) (h : (⟨3, ![a, b, c]⟩ : Shape).Reduces [2] ⟨2, ![a, b]⟩)
    (hφ : FKind.Formats φ) (hacc : acc = FKind.add.neutral φ hφ) (p : Fin a) (n : Fin b) :
    multiReduction .add [2] ⟨2, ![a, b]⟩ src acc h hφ hacc (ix2 p n) = ∑ k : Fin c, src (ix3 p n k) :=
  (Ideal.multiReduction_add_single src acc h hφ hacc (ix2 p n)).trans
    (Finset.sum_congr rfl fun k _ => congrArg src (lift_lane h p n k))

/-- Row `q`, column `k` of an [a, b, c] vector flattened to [m, c] (m = a·b) is its entry `(p, n, k)` when `q = p·b + n`. -/
theorem shapeCast_flat_apply {m : ℕ} (x : (⟨3, ![a, b, c]⟩ : Shape).Idx → α) (h : (⟨3, ![a, b, c]⟩ : Shape).ShapeCasts ⟨2, ![m, c]⟩)
    (p : Fin a) (n : Fin b) (k : Fin c) (q : Fin m) (hq : q.val = p.val * b + n.val) :
    shapeCast ⟨2, ![m, c]⟩ x h (ix2 q k) = x (ix3 p n k) :=
  shapeCast_apply x h (ix2 q k) (ix3 p n k) (by
    rw [Shape.rowMajor_val_two, Shape.rowMajor_val_three]
    show (p.val * b + n.val) * c + k.val = q.val * c + k.val
    rw [hq])

/-- Entry `(p, n, k)` of an [m, c] vector restored to [a, b, c] (m = a·b) is its row `q = p·b + n`, column `k`. -/
theorem shapeCast_unflat_apply {m : ℕ} (x : (⟨2, ![m, c]⟩ : Shape).Idx → α) (h : (⟨2, ![m, c]⟩ : Shape).ShapeCasts ⟨3, ![a, b, c]⟩)
    (p : Fin a) (n : Fin b) (k : Fin c) (q : Fin m) (hq : q.val = p.val * b + n.val) :
    shapeCast ⟨3, ![a, b, c]⟩ x h (ix3 p n k) = x (ix2 q k) :=
  shapeCast_apply x h (ix3 p n k) (ix2 q k) (by
    rw [Shape.rowMajor_val_two, Shape.rowMajor_val_three]
    show q.val * c + k.val = (p.val * b + n.val) * c + k.val
    rw [hq])

end Cert.LibKeepdims3

end
-- ==== Proof.LibSplitLanes.lean ====
/-
  The reshapes between [a, n] and [a, b, c] with n = b·c, read at an index: the last axis of length n split into b
  consecutive runs of c entries, and three axes merged back. Entry (r, g, l) of the split vector and entry (r, q) of
  the flat one are the same entry exactly when q = g·c + l: both sit at row-major position (r·b + g)·c + l.
-/
import Idealize.ShloMosaic.Lib.Pipeline.Value
import Idealize.ShloMosaic.Lib.ValueIdx

noncomputable section

namespace Cert.LibSplitLanes

open Idealize.ShloMosaic Idealize.ShloMosaic.ValueIdx

variable {α : Type} {a b c n : ℕ}

/-- Entry `(r, g, l)` of an [a, n] vector split to [a, b, c] (n = b·c) is its entry `(r, q)` with `q = g·c + l`. -/
theorem shapeCast_split_apply (x : (⟨2, ![a, n]⟩ : Shape).Idx → α) (h : (⟨2, ![a, n]⟩ : Shape).ShapeCasts ⟨3, ![a, b, c]⟩)
    (hn : n = b * c) (r : Fin a) (g : Fin b) (l : Fin c) (q : Fin n) (hq : q.val = g.val * c + l.val) :
    shapeCast ⟨3, ![a, b, c]⟩ x h (ix3 r g l) = x (ix2 r q) :=
  shapeCast_apply x h (ix3 r g l) (ix2 r q) (by
    rw [Shape.rowMajor_val_two, Shape.rowMajor_val_three]
    show r.val * n + q.val = (r.val * b + g.val) * c + l.val
    rw [hq, hn]; ring)

/-- Entry `(r, q)` of an [a, b, c] vector merged to [a, n] (n = b·c) is its entry `(r, g, l)` when `q = g·c + l`. -/
theorem shapeCast_merge_apply (x : (⟨3, ![a, b, c]⟩ : Shape).Idx → α) (h : (⟨3, ![a, b, c]⟩ : Shape).ShapeCasts ⟨2, ![a, n]⟩)
    (hn : n = b * c) (r : Fin a) (g : Fin b) (l : Fin c) (q : Fin n) (hq : q.val = g.val * c + l.val) :
    shapeCast ⟨2, ![a, n]⟩ x h (ix2 r q) = x (ix3 r g l) :=
  shapeCast_apply x h (ix2 r q) (ix3 r g l) (by
    rw [Shape.rowMajor_val_two, Shape.rowMajor_val_three]
    show (r.val * b + g.val) * c + l.val = r.val * n + q.val
    rw [hq, hn]; ring)

end Cert.LibSplitLanes

end
-- ==== Proof.KernelRow.lean ====
/-
  The kernel body's value at one entry of its output block, over the extended reals.

  The body's arithmetic is cut into its natural stages, each a small vector function of vector variables: the linear
  map (the block of 128 rows against the whole weight matrix, plus the bias row), the group normalization (the 4096
  columns split into 32 groups of 128 lanes, the group mean and mean squared deviation kept on a unit axis and
  broadcast back along the lanes), the per-column scale and shift, and the row minimum broadcast along the row. Each
  stage is read at an entry `(r, c)` written with explicit coordinates, and the stages compose to the row function of
  `GroupNormRow`: entry `(r, c)` of the body's last value is the minimum over the columns of row `r`.
-/
import proofs.«114196_j3556232921806_2_alg».proof.Proof.Gen.KernelIdeal.Skeleton
import proofs.«114196_j3556232921806_2_alg».proof.Proof.GroupNormRow
import proofs.«114196_j3556232921806_2_alg».proof.Proof.LibRowOps
import proofs.«114196_j3556232921806_2_alg».proof.Proof.LibRowMin
import proofs.«114196_j3556232921806_2_alg».proof.Proof.LibKeepdims
import proofs.«114196_j3556232921806_2_alg».proof.Proof.LibKeepdims3
import proofs.«114196_j3556232921806_2_alg».proof.Proof.LibSplitLanes

noncomputable section

namespace Cert.KernelRow

open Cert.KernelIdeal Cert.KernelIdeal.Gen Idealize.ShloMosaic Idealize.ShloMosaic.ValueIdx
open Cert.GroupNormRow

/-! ## The stages as vector functions -/

/-- The block of rows against the weights (the rounding of both operands to bf16 is the identity here), accumulated
    from zero, plus the bias row broadcast down the rows. -/
def linv (P0 : FVec Ideal S128x2048 .f32) (P1 : FVec Ideal S2048x4096 .bf16) (P2 : FVec Ideal S1x4096 .f32) : FVec Ideal S128x4096 .f32 :=
  addf (matmul dot_S128x2048_S2048x4096_S128x4096_1_0_0_1_n_n none (truncf .bf16 P0 bitsLt_bf16_f32)
      (shapeCast S2048x4096 P1 shapeCasts_S2048x4096_S2048x4096) (constant S128x4096 .f32 0x00000000#32))
    (broadcastTo S128x4096 (shapeCast S1x4096 P2 shapeCasts_S1x4096_S1x4096) broadcasts_S1x4096_S128x4096)

/-- A group's sum over its lanes, kept on a unit axis, divided by 128. -/
def meanv (y3 : FVec Ideal S128x32x128 .f32) : FVec Ideal S128x32x1 .f32 :=
  divf (shapeCast S128x32x1 (multiReduction .add [2] S128x32 y3 0x00000000#32 reduces_S128x32x128_S128x32 (.inl rfl) rfl) shapeCasts_S128x32_S128x32x1)
    (broadcast S128x32x1 (Scalar.ofBits (F := Ideal) .f32 0x43000000#32))

/-- Each lane minus its group's mean. -/
def devv (y3 : FVec Ideal S128x32x128 .f32) : FVec Ideal S128x32x128 .f32 :=
  subf y3 (broadcastTo S128x32x128 (meanv y3) broadcasts_S128x32x1_S128x32x128)

/-- Each deviation times the reciprocal square root of its group's variance plus the offset. -/
def nrmv (y3 : FVec Ideal S128x32x128 .f32) : FVec Ideal S128x32x128 .f32 :=
  mulf (devv y3) (broadcastTo S128x32x128
    (rsqrt (addf (meanv (mulf (devv y3) (devv y3))) (broadcast S128x32x1 (Scalar.ofBits (F := Ideal) .f32 0x3727C5AC#32))))
    broadcasts_S128x32x1_S128x32x128)

/-- The normalization of a [128, 4096] value: split into groups, normalized, merged back. -/
def gnv (y : FVec Ideal S128x4096 .f32) : FVec Ideal S128x4096 .f32 :=
  shapeCast S128x4096 (nrmv (shapeCast S128x32x128 y shapeCasts_S128x4096_S128x32x128)) shapeCasts_S128x32x128_S128x4096

/-- The per-column scale and shift, both rows broadcast down the rows. -/
def affv (z : FVec Ideal S128x4096 .f32) (P3 P4 : FVec Ideal S1x4096 .f32) : FVec Ideal S128x4096 .f32 :=
  addf (mulf z (broadcastTo S128x4096 (shapeCast S1x4096 P3 shapeCasts_S1x4096_S1x4096) broadcasts_S1x4096_S128x4096))
    (broadcastTo S128x4096 (shapeCast S1x4096 P4 shapeCasts_S1x4096_S1x4096) broadcasts_S1x4096_S128x4096)

/-- Each row's minimum from +infinity, kept as a column and broadcast along the row. -/
def minv (z : FVec Ideal S128x4096 .f32) : FVec Ideal S128x4096 .f32 :=
  broadcastTo S128x4096 (shapeCast S128x1 (multiReduction .minimumf [1] S128 z 0x7F800000#32 reduces_S128x4096_S128 (.inl rfl) rfl)
    shapeCasts_S128_S128x1) broadcasts_S128x1_S128x4096

/-- The body's last computed value is the composition of the stages. -/
theorem pay3_eq (P0 : Vec Ideal S128x2048 .f32) (P1 : Vec Ideal S2048x4096 .bf16) (P2 P3 P4 : Vec Ideal S1x4096 .f32) :
    k0_pay3 (F := Ideal) P0 P1 P2 P3 P4 = minv (affv (gnv (linv P0 P1 P2)) P3 P4) := rfl

/-! ## Each stage at an entry -/

/-- The linear map at `(r, c)`: row `r` against column `c` of the weights, plus the bias at `c`. -/
theorem linv_apply (P0 : FVec Ideal S128x2048 .f32) (P1 : FVec Ideal S2048x4096 .bf16) (P2 : FVec Ideal S1x4096 .f32)
    (r : Fin 128) (c : Fin 4096) :
    linv P0 P1 P2 (ix2 r c) = (∑ k : Fin 2048, P0 (ix2 r k) * P1 (ix2 k c)) + P2 (ix2 (0 : Fin 1) c) := by
  show matmul dot_S128x2048_S2048x4096_S128x4096_1_0_0_1_n_n none (truncf .bf16 P0 bitsLt_bf16_f32)
      (shapeCast S2048x4096 P1 shapeCasts_S2048x4096_S2048x4096) (constant S128x4096 .f32 0x00000000#32) (ix2 r c)
    + broadcastTo S128x4096 (shapeCast S1x4096 P2 shapeCasts_S1x4096_S1x4096) broadcasts_S1x4096_S128x4096 (ix2 r c) = _
  rw [shapeCast_self, shapeCast_self]
  refine congrArg₂ (· + ·) ?_ ?_
  · exact Cert.KernelBody.matmul_plain_zero_apply dot_S128x2048_S2048x4096_S128x4096_1_0_0_1_n_n_wf none
      (truncf .bf16 P0 bitsLt_bf16_f32) P1 r c
  · exact Cert.KernelBody.broadcastTo_row_apply P2 broadcasts_S1x4096_S128x4096 r c

/-- The kept group mean at `(r, g, 0)`: the sum of the group's lanes divided by 128. -/
theorem meanv_apply (y3 : FVec Ideal S128x32x128 .f32) (r : Fin 128) (g : Fin 32) :
    meanv y3 (ix3 r g (0 : Fin 1)) = gmean (fun g l => y3 (ix3 r g l)) g := by
  show Ideal.div (shapeCast S128x32x1 (multiReduction .add [2] S128x32 y3 0x00000000#32 reduces_S128x32x128_S128x32 (.inl rfl) rfl)
      shapeCasts_S128x32_S128x32x1 (ix3 r g (0 : Fin 1))) c128 = Ideal.div (∑ l : Fin 128, y3 (ix3 r g l)) c128
  refine congrArg (fun s => Ideal.div s c128) ?_
  exact (Cert.LibKeepdims3.shapeCast_keep_apply _ shapeCasts_S128x32_S128x32x1 r g).trans
    (Cert.LibKeepdims3.lanesum_apply y3 0x00000000#32 reduces_S128x32x128_S128x32 (.inl rfl) rfl r g)

/-- The deviation at `(r, g, l)`. -/
theorem devv_apply (y3 : FVec Ideal S128x32x128 .f32) (r : Fin 128) (g : Fin 32) (l : Fin 128) :
    devv y3 (ix3 r g l) = dev (fun g l => y3 (ix3 r g l)) g l := by
  show y3 (ix3 r g l) - broadcastTo S128x32x128 (meanv y3) broadcasts_S128x32x1_S128x32x128 (ix3 r g l)
    = y3 (ix3 r g l) - gmean (fun g l => y3 (ix3 r g l)) g
  rw [Cert.LibKeepdims3.broadcastTo_lane_apply (meanv y3) broadcasts_S128x32x1_S128x32x128 r g l, meanv_apply]

/-- The normalized lane at `(r, g, l)`. -/
theorem nrmv_apply (y3 : FVec Ideal S128x32x128 .f32) (r : Fin 128) (g : Fin 32) (l : Fin 128) :
    nrmv y3 (ix3 r g l) = nrm (fun g l => y3 (ix3 r g l)) g l := by
  show devv y3 (ix3 r g l) * broadcastTo S128x32x128
      (rsqrt (addf (meanv (mulf (devv y3) (devv y3))) (broadcast S128x32x1 (Scalar.ofBits (F := Ideal) .f32 0x3727C5AC#32))))
      broadcasts_S128x32x1_S128x32x128 (ix3 r g l)
    = dev (fun g l => y3 (ix3 r g l)) g l * Ideal.rsqrt (gvar (fun g l => y3 (ix3 r g l)) g + ceps)
  rw [Cert.LibKeepdims3.broadcastTo_lane_apply _ broadcasts_S128x32x1_S128x32x128 r g l, devv_apply]
  show _ * Ideal.rsqrt (meanv (mulf (devv y3) (devv y3)) (ix3 r g (0 : Fin 1)) + ceps) = _
  rw [meanv_apply]
  refine congrArg (fun v => dev (fun g l => y3 (ix3 r g l)) g l * Ideal.rsqrt (v + ceps)) ?_
  show gmean (fun g l => devv y3 (ix3 r g l) * devv y3 (ix3 r g l)) g = gmean (fun g l => dev (fun g l => y3 (ix3 r g l)) g l * dev (fun g l => y3 (ix3 r g l)) g l) g
  refine congrArg (fun f => gmean f g) (funext fun g' => funext fun l' => ?_)
  rw [devv_apply]

/-- The normalization at `(r, c)` reads row `r` of its operand, grouped. -/
theorem gnv_apply (y : FVec Ideal S128x4096 .f32) (r : Fin 128) (c : Fin 4096) :
    gnv y (ix2 r c) = nrm (fun g l => y (ix2 r (col g l))) (grp c) (lane c) := by
  unfold gnv
  rw [Cert.LibSplitLanes.shapeCast_merge_apply _ shapeCasts_S128x32x128_S128x4096 (by norm_num) r (grp c) (lane c) c
      (by rw [grp_val, lane_val]; omega), nrmv_apply]
  refine congrArg (fun f => nrm f (grp c) (lane c)) (funext fun g => funext fun l => ?_)
  exact Cert.LibSplitLanes.shapeCast_split_apply y shapeCasts_S128x4096_S128x32x128 (by norm_num) r g l (col g l) (col_val g l)

/-- The scale and shift at `(r, c)`. -/
theorem affv_apply (z : FVec Ideal S128x4096 .f32) (P3 P4 : FVec Ideal S1x4096 .f32) (r : Fin 128) (c : Fin 4096) :
    affv z P3 P4 (ix2 r c) = z (ix2 r c) * P3 (ix2 (0 : Fin 1) c) + P4 (ix2 (0 : Fin 1) c) := by
  show z (ix2 r c) * broadcastTo S128x4096 (shapeCast S1x4096 P3 shapeCasts_S1x4096_S1x4096) broadcasts_S1x4096_S128x4096 (ix2 r c)
    + broadcastTo S128x4096 (shapeCast S1x4096 P4 shapeCasts_S1x4096_S1x4096) broadcasts_S1x4096_S128x4096 (ix2 r c) = _
  rw [shapeCast_self, shapeCast_self, Cert.KernelBody.broadcastTo_row_apply P3 broadcasts_S1x4096_S128x4096 r c,
    Cert.KernelBody.broadcastTo_row_apply P4 broadcasts_S1x4096_S128x4096 r c]

/-- The broadcast row minimum at `(r, c)`: the infimum of row `r`. -/
theorem minv_apply (z : FVec Ideal S128x4096 .f32) (r : Fin 128) (c : Fin 4096) :
    minv z (ix2 r c) = rowmin fun c' => z (ix2 r c') :=
  (Cert.LibKeepdims.broadcastTo_col_apply _ broadcasts_S128x1_S128x4096 r c).trans
    ((Cert.LibKeepdims.shapeCast_col_apply _ shapeCasts_S128_S128x1 r).trans
      (Cert.LibRowMin.rowmin_apply z reduces_S128x4096_S128 (.inl rfl) rfl r))

/-! ## The body's last value at an entry -/

/-- Entry `(r, c)` of the body's last computed value is the minimum over the columns of row `r`, the row read off the
    loaded blocks: inputs `P0 (r, ·)`, weights `P1 (·, c)`, and the three constant rows. -/
theorem pay3_apply (P0 : Vec Ideal S128x2048 .f32) (P1 : Vec Ideal S2048x4096 .bf16) (P2 P3 P4 : Vec Ideal S1x4096 .f32)
    (r : Fin 128) (c : Fin 4096) :
    k0_pay3 (F := Ideal) P0 P1 P2 P3 P4 (ix2 r c)
      = rowmin (aff (lin (fun k => P0 (ix2 r k)) (fun c k => P1 (ix2 k c)) (fun c => P2 (ix2 (0 : Fin 1) c)))
          (fun c => P3 (ix2 (0 : Fin 1) c)) (fun c => P4 (ix2 (0 : Fin 1) c))) := by
  rw [pay3_eq, minv_apply]
  refine congrArg rowmin (funext fun c' => ?_)
  rw [affv_apply, gnv_apply]
  show _ = nrm _ (grp c') (lane c') * P3 (ix2 (0 : Fin 1) c') + P4 (ix2 (0 : Fin 1) c')
  refine congrArg (fun f => nrm f (grp c') (lane c') * P3 (ix2 (0 : Fin 1) c') + P4 (ix2 (0 : Fin 1) c'))
    (funext fun g => funext fun l => ?_)
  exact linv_apply P0 P1 P2 r (col g l)

/-- Entry `(r, c)` of what the body stores: the row's minimum plus the last constant row at column `c`, which is the row
    function's output. -/
theorem stored_apply (P0 : Vec Ideal S128x2048 .f32) (P1 : Vec Ideal S2048x4096 .bf16) (P2 P3 P4 P5 : Vec Ideal S1x4096 .f32)
    (r : Fin 128) (c : Fin 4096) :
    k0_pay1 (F := Ideal) (k0_pay2 P5) (k0_pay3 P0 P1 P2 P3 P4) (ix2 r c)
      = out (fun k => P0 (ix2 r k)) (fun c k => P1 (ix2 k c)) (fun c => P2 (ix2 (0 : Fin 1) c))
          (fun c => P3 (ix2 (0 : Fin 1) c)) (fun c => P4 (ix2 (0 : Fin 1) c)) (fun c => P5 (ix2 (0 : Fin 1) c)) c := by
  show k0_pay3 (F := Ideal) P0 P1 P2 P3 P4 (ix2 r c)
      + broadcastTo S128x4096 (shapeCast S1x4096 P5 shapeCasts_S1x4096_S1x4096) broadcasts_S1x4096_S128x4096 (ix2 r c) = _
  rw [shapeCast_self, pay3_apply, Cert.KernelBody.broadcastTo_row_apply P5 broadcasts_S1x4096_S128x4096 r c]
  rfl

end Cert.KernelRow

end
-- ==== Proof.WholeArray.lean ====
/-
  The result array as ONE function of the six argument arrays, entry by entry: entry `(r, c)` is the row function of
  `GroupNormRow` on row `r` of the input, the whole weight matrix (stored column by input), the four per-column
  vectors, read at column `c`.
-/
import Idealize.ShloMosaic.Lib.ValueIdx
import proofs.«114196_j3556232921806_2_alg».proof.Proof.GroupNormRow

noncomputable section

namespace Cert.WholeArray

open Idealize.ShloMosaic Idealize.ShloMosaic.ValueIdx Cert.GroupNormRow

/-- The result array of the arguments. -/
def G (x : (⟨2, ![8192, 2048]⟩ : Shape).Idx → EReal) (W : (⟨2, ![4096, 2048]⟩ : Shape).Idx → EReal)
    (b gam bet : (⟨1, ![4096]⟩ : Shape).Idx → EReal) (bias : (⟨4, ![1, 4096, 1, 1]⟩ : Shape).Idx → EReal) :
    (⟨2, ![8192, 4096]⟩ : Shape).Idx → EReal :=
  fun i => out (fun k => x (ix2 (i 0) k)) (fun c k => W (ix2 c k)) (fun c => b (ix1 c)) (fun c => gam (ix1 c))
    (fun c => bet (ix1 c)) (fun c => bias (ix4 (0 : Fin 1) c (0 : Fin 1) (0 : Fin 1))) (i 1)

/-- At explicit coordinates. -/
theorem G_apply (x : (⟨2, ![8192, 2048]⟩ : Shape).Idx → EReal) (W : (⟨2, ![4096, 2048]⟩ : Shape).Idx → EReal)
    (b gam bet : (⟨1, ![4096]⟩ : Shape).Idx → EReal) (bias : (⟨4, ![1, 4096, 1, 1]⟩ : Shape).Idx → EReal)
    (r : Fin 8192) (c : Fin 4096) :
    G x W b gam bet bias (ix2 r c) = out (fun k => x (ix2 r k)) (fun c k => W (ix2 c k)) (fun c => b (ix1 c))
      (fun c => gam (ix1 c)) (fun c => bet (ix1 c)) (fun c => bias (ix4 (0 : Fin 1) c (0 : Fin 1) (0 : Fin 1))) c := rfl

end Cert.WholeArray

end
-- ==== Proof.KernelValue.lean ====
/-
  From the kernel's blocks to its result array, over the extended reals.

  The grid has 64 points; point `t` reads rows `128·t … 128·t + 127` of the input and the whole of every other
  operand, and writes back rows `128·t … 128·t + 127` of the result. The weights the kernel reads were laid out before
  the launch as the transpose of the weight argument (their rounding to bf16 the identity here), and the four
  per-column vectors as single rows. So what point `t` writes back is block `t` of the whole-array function `G` of the
  arguments, the 64 blocks cover the array, and the result array ends holding `G`.
-/
import proofs.«114196_j3556232921806_2_alg».proof.Proof.ValuePatched
import proofs.«114196_j3556232921806_2_alg».proof.Proof.KernelRow
import proofs.«114196_j3556232921806_2_alg».proof.Proof.WholeArray
import Idealize.ShloMosaic.Lib.StableHlo.Run

noncomputable section

namespace Cert.KernelValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.GroupNormRow Cert.WholeArray

variable (m : (ℓ : Loc nD τ sig) → Buf (Elt Ideal) ℓ) (ρ : Dev nD → PrngReg)

theorem hz : (![0, 0] : Fin 2 → Nat) = fun _ => 0 := funext fun a => by fin_cases a <;> rfl

/-- The whole-array function of the launch memory's arguments on core `c`. -/
def Gm (c : Dev nD) : Buf (Elt Ideal) ((c : Thread nD τ).loc main_v6) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! ## What the region finds in the arrays the host wrote -/

/-- The weights as the region finds them: the transpose of the weight argument. -/
theorem V_weights (c : Dev nD) (k : Fin 2048) (n : Fin 4096) :
    (V m c main_v1 : S2048x4096.Idx → EReal) (ix2 k n) = (m ((c : Thread nD τ).loc main_arg1) : S4096x2048.Idx → EReal) (ix2 n k) := by
  have e : (V m c main_v1 : S2048x4096.Idx → EReal)
      = truncf (F := Ideal) .bf16 (transpose S2048x4096 [1, 0] (m ((c : Thread nD τ).loc main_arg1) : S4096x2048.Idx → EReal) transposes_S4096x2048_S2048x4096_1_0) bitsLt_bf16_f32 := by
    unfold V; after_results
  rw [e]
  show transpose S2048x4096 [1, 0] (m ((c : Thread nD τ).loc main_arg1) : S4096x2048.Idx → EReal) transposes_S4096x2048_S2048x4096_1_0 (ix2 k n) = _
  exact transpose_apply [1, 0] _ transposes_S4096x2048_S2048x4096_1_0 (ix2 k n) (ix2 n k)
    (fun b => by match b with | ⟨0, _⟩ => rfl | ⟨1, _⟩ => rfl)

/-- A length-4096 argument as the single row the region finds. -/
theorem V_row2 (c : Dev nD) (n : Fin 4096) :
    (V m c main_v2 : S1x4096.Idx → EReal) (ix2 (0 : Fin 1) n) = (m ((c : Thread nD τ).loc main_arg2) : S4096.Idx → EReal) (ix1 n) := by
  have e : (V m c main_v2 : S1x4096.Idx → EReal)
      = shapeCast S1x4096 (m ((c : Thread nD τ).loc main_arg2) : S4096.Idx → EReal) shapeCasts_S4096_S1x4096 := by
    unfold V; after_results; rfl
  rw [e]
  exact Cert.KernelBody.shapeCast_row_apply _ shapeCasts_S4096_S1x4096 n

theorem V_row3 (c : Dev nD) (n : Fin 4096) :
    (V m c main_v3 : S1x4096.Idx → EReal) (ix2 (0 : Fin 1) n) = (m ((c : Thread nD τ).loc main_arg3) : S4096.Idx → EReal) (ix1 n) := by
  have e : (V m c main_v3 : S1x4096.Idx → EReal)
      = shapeCast S1x4096 (m ((c : Thread nD τ).loc main_arg3) : S4096.Idx → EReal) shapeCasts_S4096_S1x4096 := by
    unfold V; after_results; rfl
  rw [e]
  exact Cert.KernelBody.shapeCast_row_apply _ shapeCasts_S4096_S1x4096 n

theorem V_row4 (c : Dev nD) (n : Fin 4096) :
    (V m c main_v4 : S1x4096.Idx → EReal) (ix2 (0 : Fin 1) n) = (m ((c : Thread nD τ).loc main_arg4) : S4096.Idx → EReal) (ix1 n) := by
  have e : (V m c main_v4 : S1x4096.Idx → EReal)
      = shapeCast S1x4096 (m ((c : Thread nD τ).loc main_arg4) : S4096.Idx → EReal) shapeCasts_S4096_S1x4096 := by
    unfold V; after_results; rfl
  rw [e]
  exact Cert.KernelBody.shapeCast_row_apply _ shapeCasts_S4096_S1x4096 n

/-- The last constant, a [1, 4096, 1, 1] argument, as the single row the region finds. -/
theorem V_row5 (c : Dev nD) (n : Fin 4096) :
    (V m c main_v5 : S1x4096.Idx → EReal) (ix2 (0 : Fin 1) n)
      = (m ((c : Thread nD τ).loc main_arg5) : S1x4096x1x1.Idx → EReal) (ix4 (0 : Fin 1) n (0 : Fin 1) (0 : Fin 1)) := by
  have e : (V m c main_v5 : S1x4096.Idx → EReal)
      = shapeCast S1x4096 (m ((c : Thread nD τ).loc main_arg5) : S1x4096x1x1.Idx → EReal) shapeCasts_S1x4096x1x1_S1x4096 := by
    unfold V; after_results; rfl
  rw [e]
  exact shapeCast_apply _ shapeCasts_S1x4096x1x1_S1x4096 (ix2 (0 : Fin 1) n) (ix4 (0 : Fin 1) n (0 : Fin 1) (0 : Fin 1)) (by
    rw [Shape.rowMajor_val_four, Shape.rowMajor_val_two]
    show ((0 * 4096 + n.val) * 1 + 0) * 1 + 0 = 0 * 4096 + n.val
    omega)

/-! ## The windows' blocks as entries of the arrays -/

/-- The printed index maps over the 64 points: the input's and the result's row blocks move with the point, every
    other operand's block is its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Entry `(r, k)` of the input's block at point `t` is entry `(128·t + r, k)` of the input. -/
theorem iblk0_apply (c : Dev nD) (t : Fin cfg0.N) (r : Fin 128) (k : Fin 2048) (q : Fin 8192) (hq : q.val = t.val * 128 + r.val) :
    (iblk m c 0 t : Vec Ideal S128x2048 .f32) (ix2 r k) = (m ((c : Thread nD τ).loc main_arg0) : S8192x2048.Idx → EReal) (ix2 q k) := by
  obtain ⟨e0, e1, -⟩ := idx_facts t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 2) * 128 + 1 * r.val = q.val; rw [e0, hq]; omega
  | ⟨1, _⟩ => show win0_0.index t (1 : Fin 2) * 2048 + 1 * k.val = k.val; rw [e1]; omega

/-- The weights' block at any point is the whole of what the region finds. -/
theorem iblk1_apply (c : Dev nD) (t : Fin cfg0.N) (k : Fin 2048) (n : Fin 4096) :
    (iblk m c 1 t : Vec Ideal S2048x4096 .bf16) (ix2 k n) = (m ((c : Thread nD τ).loc main_arg1) : S4096x2048.Idx → EReal) (ix2 n k) := by
  obtain ⟨-, -, e0, e1, -⟩ := idx_facts t
  unfold iblk
  rw [View.read_apply]
  show V m c main_v1 _ = _
  refine Eq.trans (congrArg (V m c main_v1) (funext fun a => Fin.ext ?_)) (V_weights m c k n)
  match a with
  | ⟨0, _⟩ => show win0_1.index t (0 : Fin 2) * 2048 + 1 * k.val = k.val; rw [e0]; omega
  | ⟨1, _⟩ => show win0_1.index t (1 : Fin 2) * 4096 + 1 * n.val = n.val; rw [e1]; omega

theorem iblk2_apply (c : Dev nD) (t : Fin cfg0.N) (n : Fin 4096) :
    (iblk m c 2 t : Vec Ideal S1x4096 .f32) (ix2 (0 : Fin 1) n) = (m ((c : Thread nD τ).loc main_arg2) : S4096.Idx → EReal) (ix1 n) := by
  obtain ⟨-, -, -, -, e0, e1, -⟩ := idx_facts t
  unfold iblk
  rw [View.read_apply]
  show V m c main_v2 _ = _
  refine Eq.trans (congrArg (V m c main_v2) (funext fun a => Fin.ext ?_)) (V_row2 m c n)
  match a with
  | ⟨0, _⟩ => show win0_2.index t (0 : Fin 2) * 1 + 1 * 0 = 0; rw [e0]
  | ⟨1, _⟩ => show win0_2.index t (1 : Fin 2) * 4096 + 1 * n.val = n.val; rw [e1]; omega

theorem iblk3_apply (c : Dev nD) (t : Fin cfg0.N) (n : Fin 4096) :
    (iblk m c 3 t : Vec Ideal S1x4096 .f32) (ix2 (0 : Fin 1) n) = (m ((c : Thread nD τ).loc main_arg3) : S4096.Idx → EReal) (ix1 n) := by
  obtain ⟨-, -, -, -, -, -, e0, e1, -⟩ := idx_facts t
  unfold iblk
  rw [View.read_apply]
  show V m c main_v3 _ = _
  refine Eq.trans (congrArg (V m c main_v3) (funext fun a => Fin.ext ?_)) (V_row3 m c n)
  match a with
  | ⟨0, _⟩ => show win0_3.index t (0 : Fin 2) * 1 + 1 * 0 = 0; rw [e0]
  | ⟨1, _⟩ => show win0_3.index t (1 : Fin 2) * 4096 + 1 * n.val = n.val; rw [e1]; omega

theorem iblk4_apply (c : Dev nD) (t : Fin cfg0.N) (n : Fin 4096) :
    (iblk m c 4 t : Vec Ideal S1x4096 .f32) (ix2 (0 : Fin 1) n) = (m ((c : Thread nD τ).loc main_arg4) : S4096.Idx → EReal) (ix1 n) := by
  obtain ⟨-, -, -, -, -, -, -, -, e0, e1, -⟩ := idx_facts t
  unfold iblk
  rw [View.read_apply]
  show V m c main_v4 _ = _
  refine Eq.trans (congrArg (V m c main_v4) (funext fun a => Fin.ext ?_)) (V_row4 m c n)
  match a with
  | ⟨0, _⟩ => show win0_4.index t (0 : Fin 2) * 1 + 1 * 0 = 0; rw [e0]
  | ⟨1, _⟩ => show win0_4.index t (1 : Fin 2) * 4096 + 1 * n.val = n.val; rw [e1]; omega

theorem iblk5_apply (c : Dev nD) (t : Fin cfg0.N) (n : Fin 4096) :
    (iblk m c 5 t : Vec Ideal S1x4096 .f32) (ix2 (0 : Fin 1) n)
      = (m ((c : Thread nD τ).loc main_arg5) : S1x4096x1x1.Idx → EReal) (ix4 (0 : Fin 1) n (0 : Fin 1) (0 : Fin 1)) := by
  obtain ⟨-, -, -, -, -, -, -, -, -, -, e0, e1, -⟩ := idx_facts t
  unfold iblk
  rw [View.read_apply]
  show V m c main_v5 _ = _
  refine Eq.trans (congrArg (V m c main_v5) (funext fun a => Fin.ext ?_)) (V_row5 m c n)
  match a with
  | ⟨0, _⟩ => show win0_5.index t (0 : Fin 2) * 1 + 1 * 0 = 0; rw [e0]
  | ⟨1, _⟩ => show win0_5.index t (1 : Fin 2) * 4096 + 1 * n.val = n.val; rw [e1]; omega

/-! ## What a point writes back, the cover, the array -/

/-- What point `t` writes back is block `t` of `G` of the arguments. -/
theorem flushed_eq (c : Dev nD) (t : Fin cfg0.N) :
    (dats m 0 c).flushed 6 t = ((cfg0.win 6).blk t).view.read (Elt Ideal) (Gm m c) := by
  rw [Cert.KernelIdeal.ValueP.flushed6]
  unfold out0_6
  rw [View.canon_unit_zero hz]
  simp only [View.ld_unit_zero (S := S128x2048) hz, View.ld_unit_zero (S := S2048x4096) hz, View.ld_unit_zero (S := S1x4096) hz]
  obtain ⟨-, -, -, -, -, -, -, -, -, -, -, -, e0, e1⟩ := idx_facts t
  funext j
  obtain ⟨r, n, rfl⟩ : ∃ (r : Fin 128) (n : Fin 4096), j = ix2 r n := ⟨j 0, j 1, eq_ix2 j⟩
  have hr := r.isLt
  have ht : t.val < 64 := by have := t.isLt; have hN : cfg0.N = 64 := N_0; omega
  have hi : ((cfg0.win 6).blk t).view.emb (ix2 r n) = ix2 (⟨t.val * 128 + r.val, by omega⟩ : Fin 8192) n := by
    funext a; apply Fin.ext
    match a with
    | ⟨0, _⟩ => show win0_6.index t (0 : Fin 2) * 128 + 1 * r.val = t.val * 128 + r.val; rw [e0]; omega
    | ⟨1, _⟩ => show win0_6.index t (1 : Fin 2) * 4096 + 1 * n.val = n.val; rw [e1]; omega
  show k0_pay1 (F := Ideal) (k0_pay2 (iblk m c 5 t)) (k0_pay3 (iblk m c 0 t) (iblk m c 1 t) (iblk m c 2 t) (iblk m c 3 t) (iblk m c 4 t)) (ix2 r n)
    = Gm m c (((cfg0.win 6).blk t).view.emb (ix2 r n))
  rw [hi]
  refine (Cert.KernelRow.stored_apply _ _ _ _ _ _ r n).trans ?_
  unfold Gm
  rw [G_apply]
  have h0 : (fun k => (iblk m c 0 t : Vec Ideal S128x2048 .f32) (ix2 r k))
      = fun k => (m ((c : Thread nD τ).loc main_arg0) : S8192x2048.Idx → EReal) (ix2 (⟨t.val * 128 + r.val, by omega⟩ : Fin 8192) k) :=
    funext fun k => iblk0_apply m c t r k _ rfl
  have h1 : (fun (n : Fin 4096) (k : Fin 2048) => (iblk m c 1 t : Vec Ideal S2048x4096 .bf16) (ix2 k n))
      = fun n k => (m ((c : Thread nD τ).loc main_arg1) : S4096x2048.Idx → EReal) (ix2 n k) :=
    funext fun n => funext fun k => iblk1_apply m c t k n
  have h2 := funext fun n => iblk2_apply m c t n
  have h3 := funext fun n => iblk3_apply m c t n
  have h4 := funext fun n => iblk4_apply m c t n
  have h5 := funext fun n => iblk5_apply m c t n
  rw [h0, h1, h2, h3, h4, h5]

/-- An entry of the result is in point `t`'s block iff each coordinate is in the block's range. -/
theorem mem_blk (t : Fin cfg0.N) (i : S8192x4096.Idx) :
    i ∈ ((cfg0.win 6).blk t).view.set ↔ ∀ a : Fin 2, win0_6.index t a * S128x4096.size a ≤ (i a).val
      ∧ (i a).val < win0_6.index t a * S128x4096.size a + S128x4096.size a := by
  show i ∈ ((View.whole main_v6).slice (win0_6.rect t)).set ↔ _
  rw [View.set_slice_whole, Rect.mem_set_unit]
  exact Iff.rfl

/-- Every entry of the result is in the block of the point that owns its row: row `q` belongs to point `q / 128`. -/
theorem cover (i : S8192x4096.Idx) : ∃ t : Fin cfg0.N, (cfg0.win 6).flush t = true ∧ i ∈ ((cfg0.win 6).blk t).view.set := by
  have h0 : (i 0).val < 8192 := (i 0).isLt
  have h1 : (i 1).val < 4096 := (i 1).isLt
  have hN : cfg0.N = 64 := N_0
  let t : Fin cfg0.N := ⟨(i 0).val / 128, by rw [hN]; omega⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 128 ≤ (i 0).val ∧ (i 0).val < win0_6.index t (0 : Fin 2) * 128 + 128
    rw [e0]; show (i 0).val / 128 * 128 ≤ (i 0).val ∧ (i 0).val < (i 0).val / 128 * 128 + 128; omega
  | ⟨1, _⟩ =>
    show win0_6.index t (1 : Fin 2) * 4096 ≤ (i 1).val ∧ (i 1).val < win0_6.index t (1 : Fin 2) * 4096 + 4096
    rw [e1]; omega

/-- The result array after the run holds `G` of the arguments. -/
theorem final (c : Dev nD) : (dats m 0 c).arrAt 6 cfg0.N = Gm m c :=
  (dats m 0 c).arrAt_eq_of_cover 6 (Gm m c) (fun t _ => flushed_eq m c t) cover

/-- The kernel's run: the result array at `G` of the arguments, the arguments unchanged. -/
theorem run : θ_run defs (onTc (τ := τ) (main (F := Ideal))) ⟨m, fun _ => 0, ρ⟩ fun r => ∀ c : Dev nD,
      r.2.mem ((c : Thread nD τ).loc main_v6) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.ValueP.run_blocks m ρ)

end Cert.KernelValue

end
-- ==== Proof.LibHostRowMin.lean ====
/-
  The host's reduction with a minimum body over the second axis of an [a, b] array, started from +infinity, read at
  a row over the extended reals: the infimum of that row's entries. (The fold of `min` over the row, whatever its
  order, from the top element.)
-/
import Idealize.ShloMosaic.PureOps.Reduce
import proofs.«114196_j3556232921806_2_alg».proof.Proof.LibRowMin

noncomputable section

namespace Cert.LibHostRowMin

open Idealize.ShloMosaic Idealize.ShloMosaic.ValueIdx

variable {a b : ℕ} {u : Shape}

/-- Row `n` of the host's min-reduce over axis 1, its initial value +infinity, is the infimum of row `n`. -/
theorem hostRowMin_apply (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (hinit : init (Shape.Idx.first hu) = ⊤) (n : Fin a) :
    Host.reduce (min : EReal → EReal → EReal) x init h' hu (ix1 n) = (Finset.univ : Finset (Fin b)).inf fun k => x (ix2 n k) := by
  rw [Host.reduce_eq_fold_single min x init h' h hu (ix1 n), hinit]
  have e : (x ∘ h.lift (ix1 n)) = fun k => x (ix2 n k) :=
    funext fun k => congrArg x (Cert.LibRowMin.lift_row h n k)
  rw [e]
  exact Cert.LibRowMin.fold_min_top _ _

end Cert.LibHostRowMin

end
-- ==== Proof.RefRow.lean ====
/-
  The reference's value at one entry of its result, over the extended reals.

  The reference's operations are read one at a time at entries written with explicit coordinates — row `r` of 8192,
  column `c` of 4096, group `g` of 32, lane `l` of 128 — and each stretch of them is identified with a piece of the row
  function of `GroupNormRow`: the matrix product with the bias is the linear map of row `r`; the reshape puts column
  `128·g + l` at `(r, g, l)`; the two sums over the lanes, divided by 128, are the group mean and variance; the
  product with the reciprocal square root is the normalized lane; the scale and shift and the minimum over the columns
  give the row's minimum; the last stretch adds the per-column constant.
-/
import proofs.«114196_j3556232921806_2_alg».proof.Proof.Gen.ReferenceIdeal.Read
import proofs.«114196_j3556232921806_2_alg».proof.Proof.GroupNormRow
import proofs.«114196_j3556232921806_2_alg».proof.Proof.LibHostRowMin

noncomputable section

namespace Cert.RefRow

open Cert.ReferenceIdeal Cert.ReferenceIdeal.Gen Cert.ReferenceIdeal.Read Idealize.ShloMosaic Idealize.ShloMosaic.ValueIdx
open Cert.GroupNormRow

variable (x0 : (⟨S8192x2048, .f32⟩ : BufTy).Contents (Elt Ideal)) (x1 : (⟨S4096x2048, .f32⟩ : BufTy).Contents (Elt Ideal))
  (x2 x3 x4 : (⟨S4096, .f32⟩ : BufTy).Contents (Elt Ideal)) (x5 : (⟨S1x4096x1x1, .f32⟩ : BufTy).Contents (Elt Ideal))

/-- Row `r` of the linear map's result, as a function of the column. -/
def yrow (r : Fin 8192) : Fin 4096 → EReal :=
  lin (fun k => x0 (ix2 r k)) (fun c k => x1 (ix2 c k)) (fun c => x2 (ix1 c))

/-- The same row by group and lane. -/
def ygrp (r : Fin 8192) : Fin 32 → Fin 128 → EReal := fun g l => yrow x0 x1 x2 r (col g l)

/-! ## The linear map and its reshape -/

theorem lin_apply (r : Fin 8192) (c : Fin 4096) : val_main_v3 (F := Ideal) x0 x1 x2 (ix2 r c) = yrow x0 x1 x2 r c := by
  rw [val_main_v3_apply, val_main_v0_apply, val_main_v2_apply, val_main_v1_apply]
  have e1 : idx_main_v1 (idx_main_v2 (ix2 r c)) = ix1 c := funext fun a => by match a with | ⟨0, _⟩ => rfl
  rw [e1]
  show (∑ k : Fin 2048, x0 (lidx_main_v0 (ix2 r c) k) * x1 (ridx_main_v0 (ix2 r c) k)) + x2 (ix1 c)
    = (∑ k : Fin 2048, x0 (ix2 r k) * x1 (ix2 c k)) + x2 (ix1 c)
  refine congrArg (· + x2 (ix1 c)) (Finset.sum_congr rfl fun k _ => ?_)
  have el : lidx_main_v0 (ix2 r c) k = ix2 r k := funext fun a => by match a with | ⟨0, _⟩ => rfl | ⟨1, _⟩ => rfl
  have er : ridx_main_v0 (ix2 r c) k = ix2 c k := funext fun a => by match a with | ⟨0, _⟩ => rfl | ⟨1, _⟩ => rfl
  rw [el, er]

theorem split_apply (r : Fin 8192) (g : Fin 32) (l : Fin 128) :
    val_main_v4 (F := Ideal) x0 x1 x2 (ix3 r g l) = ygrp x0 x1 x2 r g l := by
  rw [val_main_v4_apply]
  have e : idx_main_v4 (ix3 r g l) = ix2 r (col g l) := funext fun a => Fin.ext (by
    have hr := r.isLt; have hg := g.isLt; have hl := l.isLt
    match a with
    | ⟨0, _⟩ => show ((r.val * 32 + g.val) * 128 + l.val) / 4096 = r.val; omega
    | ⟨1, _⟩ => show ((r.val * 32 + g.val) * 128 + l.val) % 4096 = g.val * 128 + l.val; omega)
  rw [e, lin_apply]
  rfl

/-! ## The group statistics -/

theorem mean_apply (r : Fin 8192) (g : Fin 32) :
    val_main_v8 (F := Ideal) x0 x1 x2 (ix3 r g (0 : Fin 1)) = gmean (ygrp x0 x1 x2 r) g := by
  rw [val_main_v8_apply, val_main_v6_apply, val_main_v5_apply, val_main_v7_apply, val_main_cst_0_apply, val_main_cst_apply]
  show Ideal.div (Ideal.ofBits .f32 0x00000000#32 + ∑ k : Fin 128, val_main_v4 (F := Ideal) x0 x1 x2 (idx_main_v5 (idx_main_v6 (ix3 r g (0 : Fin 1))) k)) c128
    = Ideal.div (∑ l : Fin 128, ygrp x0 x1 x2 r g l) c128
  rw [Ideal.ofBits_zero_f32, zero_add]
  refine congrArg (fun s => Ideal.div s c128) (Finset.sum_congr rfl fun k _ => ?_)
  have e : idx_main_v5 (idx_main_v6 (ix3 r g (0 : Fin 1))) k = ix3 r g k :=
    funext fun a => by match a with | ⟨0, _⟩ => rfl | ⟨1, _⟩ => rfl | ⟨2, _⟩ => rfl
  rw [e, split_apply]

theorem dev_apply (r : Fin 8192) (g : Fin 32) (l : Fin 128) :
    val_main_v10 (F := Ideal) x0 x1 x2 (ix3 r g l) = dev (ygrp x0 x1 x2 r) g l := by
  rw [val_main_v10_apply, val_main_v9_apply, split_apply]
  have e : idx_main_v9 (ix3 r g l) = ix3 r g (0 : Fin 1) :=
    funext fun a => by match a with | ⟨0, _⟩ => rfl | ⟨1, _⟩ => rfl | ⟨2, _⟩ => rfl
  rw [e, mean_apply]
  rfl

theorem dev_apply' (r : Fin 8192) (g : Fin 32) (l : Fin 128) :
    val_main_v17 (F := Ideal) x0 x1 x2 (ix3 r g l) = dev (ygrp x0 x1 x2 r) g l := by
  rw [val_main_v17_apply, val_main_v16_apply, split_apply]
  have e : idx_main_v16 (ix3 r g l) = ix3 r g (0 : Fin 1) :=
    funext fun a => by match a with | ⟨0, _⟩ => rfl | ⟨1, _⟩ => rfl | ⟨2, _⟩ => rfl
  rw [e, mean_apply]
  rfl

theorem var_apply (r : Fin 8192) (g : Fin 32) :
    val_main_v15 (F := Ideal) x0 x1 x2 (ix3 r g (0 : Fin 1)) = gvar (ygrp x0 x1 x2 r) g := by
  rw [val_main_v15_apply, val_main_v13_apply, val_main_v12_apply, val_main_v14_apply, val_main_cst_2_apply, val_main_cst_1_apply]
  show Ideal.div (Ideal.ofBits .f32 0x00000000#32 + ∑ k : Fin 128, val_main_v11 (F := Ideal) x0 x1 x2 (idx_main_v12 (idx_main_v13 (ix3 r g (0 : Fin 1))) k)) c128
    = Ideal.div (∑ l : Fin 128, dev (ygrp x0 x1 x2 r) g l * dev (ygrp x0 x1 x2 r) g l) c128
  rw [Ideal.ofBits_zero_f32, zero_add]
  refine congrArg (fun s => Ideal.div s c128) (Finset.sum_congr rfl fun k _ => ?_)
  have e : idx_main_v12 (idx_main_v13 (ix3 r g (0 : Fin 1))) k = ix3 r g k :=
    funext fun a => by match a with | ⟨0, _⟩ => rfl | ⟨1, _⟩ => rfl | ⟨2, _⟩ => rfl
  rw [e, val_main_v11_apply, dev_apply]
  rfl

theorem nrm_apply (r : Fin 8192) (g : Fin 32) (l : Fin 128) :
    val_main_v22 (F := Ideal) x0 x1 x2 (ix3 r g l) = nrm (ygrp x0 x1 x2 r) g l := by
  rw [val_main_v22_apply, val_main_v21_apply, val_main_v20_apply, val_main_v19_apply, val_main_v18_apply, val_main_cst_3_apply, dev_apply']
  have e : idx_main_v21 (ix3 r g l) = ix3 r g (0 : Fin 1) :=
    funext fun a => by match a with | ⟨0, _⟩ => rfl | ⟨1, _⟩ => rfl | ⟨2, _⟩ => rfl
  rw [e, var_apply]
  rfl

/-! ## Merging the groups, the scale and shift, the minimum -/

theorem merge_apply (r : Fin 8192) (c : Fin 4096) :
    val_main_v23 (F := Ideal) x0 x1 x2 (ix2 r c) = nrm (ygrp x0 x1 x2 r) (grp c) (lane c) := by
  rw [val_main_v23_apply]
  have e : idx_main_v23 (ix2 r c) = ix3 r (grp c) (lane c) := funext fun a => Fin.ext (by
    have hr := r.isLt; have hc := c.isLt
    match a with
    | ⟨0, _⟩ => show (r.val * 4096 + c.val) / 4096 = r.val; omega
    | ⟨1, _⟩ => show (r.val * 4096 + c.val) / 128 % 32 = c.val / 128; omega
    | ⟨2, _⟩ => show (r.val * 4096 + c.val) % 128 = c.val % 128; omega)
  rw [e, nrm_apply]

theorem aff_apply (r : Fin 8192) (c : Fin 4096) :
    val_main_v29 (F := Ideal) x0 x1 x2 x3 x4 (ix2 r c)
      = aff (yrow x0 x1 x2 r) (fun c => x3 (ix1 c)) (fun c => x4 (ix1 c)) c := by
  rw [val_main_v29_apply, val_main_v26_apply, val_main_v25_apply, val_main_v24_apply, val_main_v28_apply, val_main_v27_apply, merge_apply]
  have e3 : idx_main_v24 (idx_main_v25 (ix2 r c)) = ix1 c := funext fun a => by match a with | ⟨0, _⟩ => rfl
  have e4 : idx_main_v27 (idx_main_v28 (ix2 r c)) = ix1 c := funext fun a => by match a with | ⟨0, _⟩ => rfl
  rw [e3, e4]
  rfl

theorem min_apply (r : Fin 8192) :
    val_main_v30 (F := Ideal) x0 x1 x2 x3 x4 (ix1 r)
      = rowmin (aff (yrow x0 x1 x2 r) (fun c => x3 (ix1 c)) (fun c => x4 (ix1 c))) := by
  unfold val_main_v30
  generalize hy : val_main_v29 (F := Ideal) x0 x1 x2 x3 x4 = y
  show Host.reduce (min : EReal → EReal → EReal) y (val_main_cst_4 (F := Ideal)) reducesTo_S8192x4096_S8192_d1 h_S_ (ix1 r) = _
  rw [Cert.LibHostRowMin.hostRowMin_apply y (val_main_cst_4 (F := Ideal)) reducesTo_S8192x4096_S8192_d1 (by decide) h_S_
    Cert.LibRowMin.ofBits_inf_f32 r]
  refine congrArg rowmin (funext fun c => ?_)
  rw [← hy, aff_apply]

/-! ## The result -/

/-- Entry `(r, c)` of the reference's result is the row function of row `r` at column `c`. -/
theorem out_apply (r : Fin 8192) (c : Fin 4096) :
    val_main_v36 (F := Ideal) x0 x1 x2 x3 x4 x5 (ix2 r c)
      = out (fun k => x0 (ix2 r k)) (fun c k => x1 (ix2 c k)) (fun c => x2 (ix1 c)) (fun c => x3 (ix1 c)) (fun c => x4 (ix1 c))
          (fun c => x5 (ix4 (0 : Fin 1) c (0 : Fin 1) (0 : Fin 1))) c := by
  rw [val_main_v36_apply, val_main_v35_apply, val_main_v33_apply, val_main_v32_apply, val_main_v31_apply, val_main_v34_apply]
  have e0 : idx_main_v36 (ix2 r c) = ix4 r c (0 : Fin 1) (0 : Fin 1) := funext fun a => Fin.ext (by
    have hr := r.isLt; have hc := c.isLt
    match a with
    | ⟨0, _⟩ => show (r.val * 4096 + c.val) / 4096 = r.val; omega
    | ⟨1, _⟩ => show (r.val * 4096 + c.val) / 1 % 4096 = c.val; omega
    | ⟨2, _⟩ => rfl
    | ⟨3, _⟩ => rfl)
  rw [e0]
  have e1 : idx_main_v31 (idx_main_v32 (idx_main_v33 (ix4 r c (0 : Fin 1) (0 : Fin 1)))) = ix1 r :=
    funext fun a => by match a with | ⟨0, _⟩ => rfl
  have e2 : idx_main_v34 (ix4 r c (0 : Fin 1) (0 : Fin 1)) = ix4 (0 : Fin 1) c (0 : Fin 1) (0 : Fin 1) :=
    funext fun a => by match a with | ⟨0, _⟩ => rfl | ⟨1, _⟩ => rfl | ⟨2, _⟩ => rfl | ⟨3, _⟩ => rfl
  rw [e1, e2, min_apply]
  rfl

end Cert.RefRow

end
-- ==== Proof.lean ====
/-
  The five claims of this certificate.

  Both idealized programs compute, entry `(r, c)` of the [8192, 4096] result, the same row function of the arguments
  (`GroupNormRow`): row `r` of the input through the linear map, the 4096 columns normalized in 32 groups of 128 lanes,
  scaled and shifted per column, the minimum over the columns, plus a per-column constant. The kernel does it 128 rows at
  a time over a grid of 64 points (`KernelRow` for one entry of a block, `KernelValue` from the blocks to the array);
  the reference does it on the whole arrays (`RefRow`). The two agree operation for operation — the only rearrangement
  is the weight matrix, which the kernel reads transposed — so no law of the extended reals beyond reading the sums and
  the minimum entry by entry is used, and the inputs' finiteness is never opened.
  The three frames are the programs' generated runs; the idealization rewrote nothing, so `preserves` is trivial.
-/
import proofs.«114196_j3556232921806_2_alg».proof.Defs
import proofs.«114196_j3556232921806_2_alg».proof.Proof.Gen.Kernel
import proofs.«114196_j3556232921806_2_alg».proof.Proof.Gen.Kernel.Frame
import proofs.«114196_j3556232921806_2_alg».proof.Proof.Gen.KernelIdeal
import proofs.«114196_j3556232921806_2_alg».proof.Proof.Gen.KernelIdeal.Frame
import proofs.«114196_j3556232921806_2_alg».proof.Proof.Gen.ReferenceIdeal
import proofs.«114196_j3556232921806_2_alg».proof.Proof.Gen.ReferenceIdeal.Run
import proofs.«114196_j3556232921806_2_alg».proof.Proof.Gen.ReferenceIdeal.Read
import proofs.«114196_j3556232921806_2_alg».proof.Proof.Gen.Pre_finite_inputs
import proofs.«114196_j3556232921806_2_alg».proof.Proof.KernelValue
import proofs.«114196_j3556232921806_2_alg».proof.Proof.RefRow
import proofs.«114196_j3556232921806_2_alg».proof.Proof.WholeArray

noncomputable section

namespace Cert.Proof

open Idealize.ShloMosaic Idealize.ShloMosaic.TcCoe Idealize.SL.Sem

/-- The reference's result, as a function of its arguments, is the whole-array function: entry by entry both are the
    row function of row `r` at column `c`. -/
theorem ref_is_G (x0 : (⟨Cert.ReferenceIdeal.S8192x2048, .f32⟩ : BufTy).Contents (Elt Ideal))
    (x1 : (⟨Cert.ReferenceIdeal.S4096x2048, .f32⟩ : BufTy).Contents (Elt Ideal))
    (x2 x3 x4 : (⟨Cert.ReferenceIdeal.S4096, .f32⟩ : BufTy).Contents (Elt Ideal))
    (x5 : (⟨Cert.ReferenceIdeal.S1x4096x1x1, .f32⟩ : BufTy).Contents (Elt Ideal)) :
    Cert.ReferenceIdeal.Read.val_main_v36 (F := Ideal) x0 x1 x2 x3 x4 x5 = Cert.WholeArray.G x0 x1 x2 x3 x4 x5 := by
  funext i
  obtain ⟨r, c, rfl⟩ : ∃ (r : Fin 8192) (c : Fin 4096), i = ValueIdx.ix2 r c := ⟨i 0, i 1, ValueIdx.eq_ix2 i⟩
  rw [Cert.RefRow.out_apply, Cert.WholeArray.G_apply]

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array ends at the whole-array function of the
    arguments, and so does the reference's. -/
theorem algebraic : Cert.algebraic_KernelIdeal_ReferenceIdeal := by
  intro m ρ m' ρ' _ hagree
  refine ⟨fun c => Cert.KernelValue.Gm m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, ref_is_G, (hagree c).1, (hagree c).2.1, (hagree c).2.2.1,
    (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
